-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel

variable [Facts]

def fn {F : FTy → Type} [FloatOps F] (main_arg0 : FVec F S1048576x128 .f32) (main_arg1 : FVec F S1048576x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  main_v8
-- ==== Kernel.lean ====
abbrev S1048576x128 : Shape := ⟨2, ![1048576, 128]⟩
abbrev S2x8x128 : Shape := ⟨3, ![2, 8, 128]⟩
abbrev S8192x128 : Shape := ⟨2, ![8192, 128]⟩
abbrev S1x8x128 : Shape := ⟨3, ![1, 8, 128]⟩
abbrev S1x1 : Shape := ⟨2, ![1, 1]⟩
abbrev S8192 : Shape := ⟨1, ![8192]⟩
abbrev S8192x1 : Shape := ⟨2, ![8192, 1]⟩
abbrev S1 : Shape := ⟨1, ![1]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v39 : BitVec 1 := Scalar.cmpi .eq arg1 c63_i32
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg1) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x128 : Shape := ⟨2, ![1048576, 128]⟩
abbrev S_ : Shape := ⟨0, ![]⟩
abbrev S1048576 : Shape := ⟨1, ![1048576]⟩
abbrev S1048576x1 : Shape := ⟨2, ![1048576, 1]⟩

abbrev nBuf : Space → Nat
  | .hbm => 34
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1048576x128, .f32⟩
  | .hbm, ⟨3, _⟩ => ⟨S_, .f32⟩
  | .hbm, ⟨4, _⟩ => ⟨S1048576, .f32⟩
  | .hbm, ⟨5, _⟩ => ⟨S1048576x1, .f32⟩
  | .hbm, ⟨6, _⟩ => ⟨S1048576x128, .f32⟩
  | .hbm, ⟨7, _⟩ => ⟨S1048576x128, .f32⟩
  | .hbm, ⟨8, _⟩ => ⟨S1048576x128, .f32⟩
  | .hbm, ⟨9, _⟩ => ⟨S1048576x128, .f32⟩
  | .hbm, ⟨10, _⟩ => ⟨S_, .f32⟩
  | .hbm, ⟨11, _⟩ => ⟨S1048576, .f32⟩
  | .hbm, ⟨12, _⟩ => ⟨S1048576x1, .f32⟩
  | .hbm, ⟨13, _⟩ => ⟨S1048576x1, .f32⟩
  | .hbm, ⟨14, _⟩ => ⟨S_, .f32⟩
  | .hbm, ⟨15, _⟩ => ⟨S1048576x1, .f32⟩
  | .hbm, ⟨16, _⟩ => ⟨S1048576x1, .f32⟩
  | .hbm, ⟨17, _⟩ => ⟨S1048576x128, .f32⟩
  | .hbm, ⟨18, _⟩ => ⟨S1048576x128, .f32⟩
  | .hbm, ⟨19, _⟩ => ⟨S1048576, .f32⟩
  | .hbm, ⟨20, _⟩ => ⟨S1048576x128, .f32⟩
  | .hbm, ⟨21, _⟩ => ⟨S_, .f32⟩
  | .hbm, ⟨22, _⟩ => ⟨S1048576, .f32⟩
  | .hbm, ⟨23, _⟩ => ⟨S_, .f32⟩
  | .hbm, ⟨24, _⟩ => ⟨S1048576, .f32⟩
  | .hbm, ⟨25, _⟩ => ⟨S1048576, .f32⟩
  | .hbm, ⟨26, _⟩ => ⟨S1048576, .f32⟩
  | .hbm, ⟨27, _⟩ => ⟨S_, .f32⟩
  | .hbm, ⟨28, _⟩ => ⟨S1048576, .f32⟩
  | .hbm, ⟨29, _⟩ => ⟨S1048576, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S_S1048576x1 : S_.BroadcastsInDim S1048576x1 (![] : Fin 0 → Fin S1048576x1.rank)
  shapeCasts_S1048576x1_S1048576 : S1048576x1.ShapeCasts S1048576
  bcast_S_S1048576 : S_.BroadcastsInDim S1048576 (![] : Fin 0 → Fin S1048576.rank)
  reducesTo_S1048576_S_d0 : S1048576.ReducesTo [0] S_

variable [Facts₀]

class Facts : Prop extends Facts₀ where

variable [Facts]
-- ==== Proof.Accumulate.lean ====
/-
  What the one-entry accumulator holds after every grid step, and what the last step of each half writes out.

  The grid is two halves of 64 steps. At the first step of a half the body stores zero into the accumulator and then
  adds the step's block total to it; at every later step it adds the block total to what the step before left; at the
  last step of a half it also broadcasts the accumulator's entry over the output block. So after step `n` the
  accumulator is a recursion on `n` that restarts from zero whenever `n` is a multiple of 64, and the output block
  written at steps 63 and 127 is the broadcast of the accumulator there. The recursion holds at any float instance:
  nothing here reads the arithmetic.
-/
import proofs.«110982_j22832046145612_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first step of a half: the accumulator is reset to zero and the block total added to that. -/
theorem scratch_first (c : Dev nD) (i : grid0.Coords) (arg2 : Memref sig .tc .vmem S8192x128 .f32) (harg2 : arg2.IsWhole)
    (arg3 : Memref sig .tc .vmem S8192x128 .f32) (harg3 : arg3.IsWhole) (arg4 : Memref sig .tc .vmem S1x8x128 .f32) (harg4 : arg4.IsWhole)
    (arg5 : Memref sig .tc .vmem S1x1 .f32) (harg5 : arg5.IsWhole) (hc0 : cond0_0 i) (hc1 : ¬cond0_1 i)
    (x0 : Vec F S8192x128 .f32) (x1 : Vec F S8192x128 .f32) :
    sout0_A_0 c i arg2 harg2 arg3 harg3 arg4 harg4 arg5 harg5 hc0 hc1 x0 x1 = k0_pay4 x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  unfold k0_pay1
  simp only [View.readAt_eq_ld, harg2.read_unread, harg3.read_unread, View.ld_unit_zero (S := S8192x128) hz2, shapeCast_self]

/-- A middle step: the block total added to what the step before left. -/
theorem scratch_middle (c : Dev nD) (i : grid0.Coords) (arg2 : Memref sig .tc .vmem S8192x128 .f32) (harg2 : arg2.IsWhole)
    (arg3 : Memref sig .tc .vmem S8192x128 .f32) (harg3 : arg3.IsWhole) (arg4 : Memref sig .tc .vmem S1x8x128 .f32) (harg4 : arg4.IsWhole)
    (arg5 : Memref sig .tc .vmem S1x1 .f32) (harg5 : arg5.IsWhole) (hc0 : ¬cond0_0 i) (hc1 : ¬cond0_1 i)
    (x0 : Vec F S8192x128 .f32) (x1 : Vec F S8192x128 .f32) (xs0 : Vec F S1x1 .f32) :
    sout0_B_0 c i arg2 harg2 arg3 harg3 arg4 harg4 arg5 harg5 hc0 hc1 x0 x1 xs0 = k0_pay4 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  unfold k0_pay1
  simp only [View.readAt_eq_ld, harg2.read_unread, harg3.read_unread, harg5.read_unread, View.ld_unit_zero (S := S8192x128) hz2,
    View.ld_unit_zero (S := S1x1) hz2, shapeCast_self]

/-- A last step of a half leaves the accumulator as a middle step does, -/
theorem scratch_last (c : Dev nD) (i : grid0.Coords) (arg2 : Memref sig .tc .vmem S8192x128 .f32) (harg2 : arg2.IsWhole)
    (arg3 : Memref sig .tc .vmem S8192x128 .f32) (harg3 : arg3.IsWhole) (arg4 : Memref sig .tc .vmem S1x8x128 .f32) (harg4 : arg4.IsWhole)
    (arg5 : Memref sig .tc .vmem S1x1 .f32) (harg5 : arg5.IsWhole) (hc0 : ¬cond0_0 i) (hc1 : cond0_1 i)
    (x0 : Vec F S8192x128 .f32) (x1 : Vec F S8192x128 .f32) (xs0 : Vec F S1x1 .f32) :
    sout0_C_0 c i arg2 harg2 arg3 harg3 arg4 harg4 arg5 harg5 hc0 hc1 x0 x1 xs0 = k0_pay4 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  unfold k0_pay1
  simp only [View.readAt_eq_ld, harg2.read_unread, harg3.read_unread, harg5.read_unread, View.ld_unit_zero (S := S8192x128) hz2,
    View.ld_unit_zero (S := S1x1) hz2, shapeCast_self]

/-- and writes the broadcast of that accumulator's entry over the output block. -/
theorem out_last (c : Dev nD) (i : grid0.Coords) (arg2 : Memref sig .tc .vmem S8192x128 .f32) (harg2 : arg2.IsWhole)
    (arg3 : Memref sig .tc .vmem S8192x128 .f32) (harg3 : arg3.IsWhole) (arg4 : Memref sig .tc .vmem S1x8x128 .f32) (harg4 : arg4.IsWhole)
    (arg5 : Memref sig .tc .vmem S1x1 .f32) (harg5 : arg5.IsWhole) (hc0 : ¬cond0_0 i) (hc1 : cond0_1 i)
    (x0 : Vec F S8192x128 .f32) (x1 : Vec F S8192x128 .f32) (xs0 : Vec F S1x1 .f32) :
    out0_C_2 c i arg2 harg2 arg3 harg3 arg4 harg4 arg5 harg5 hc0 hc1 x0 x1 xs0 = k0_pay2 (k0_pay4 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1) _ hz2]
  unfold k0_pay1
  simp only [View.readAt_eq_ld, harg2.read_unread, harg3.read_unread, harg5.read_unread, View.ld_unit_zero (S := S8192x128) hz2,
    View.ld_unit_zero (S := S1x1) hz2, shapeCast_self]

variable (m : (ℓ : Loc nD τ sig) → Buf (Elt F) ℓ)

/-- The accumulator after step `n`: restarted from zero at the multiples of 64, else continued from step `n - 1`. -/
def accAt (c : Dev nD) : (n : ℕ) → n < cfg0.N → Vec F S1x1 .f32
  | 0, h => k0_pay4 (iblk m c 0 ⟨0, h⟩) (iblk m c 1 ⟨0, h⟩) (k0_pay3 (F := F))
  | n + 1, h =>
    if (n + 1) % 64 = 0 then k0_pay4 (iblk m c 0 ⟨n + 1, h⟩) (iblk m c 1 ⟨n + 1, h⟩) (k0_pay3 (F := F))
    else k0_pay4 (iblk m c 0 ⟨n + 1, h⟩) (iblk m c 1 ⟨n + 1, h⟩) (accAt c n (Nat.lt_of_succ_lt h))

/-- At a multiple of 64 the accumulator restarts from zero. -/
theorem accAt_first (c : Dev nD) (n : ℕ) (h : n < cfg0.N) (h0 : n % 64 = 0) :
    accAt m c n h = k0_pay4 (iblk m c 0 ⟨n, h⟩) (iblk m c 1 ⟨n, h⟩) (k0_pay3 (F := F)) := by
  cases n with
  | zero => rfl
  | succ n => exact if_pos h0

/-- Off the multiples of 64 the accumulator continues from the step before. -/
theorem accAt_pred (c : Dev nD) (t : Fin cfg0.N) (h0 : ¬t.val % 64 = 0) :
    accAt m c t.val t.isLt
      = k0_pay4 (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact if_neg h0

/-- One step of the induction: if the carried scratch is the accumulator after the step before (asked only off the
    multiples of 64, where the step before matters), it is the accumulator after this step. -/
theorem scratch_step (c : Dev nD) (t : Fin cfg0.N)
    (ih : ¬t.val % 64 = 0 → (outsAt0 m c (t.val - 1) (Nat.lt_of_le_of_lt (Nat.sub_le _ _) t.isLt)).2
      = accAt m c (t.val - 1) (Nat.lt_of_le_of_lt (Nat.sub_le _ _) t.isLt)) :
    (outsAt0 m c t.val t.isLt).2 = accAt m c t.val t.isLt := by
  have hN : t.val < 128 := lt_of_lt_of_eq t.isLt (show cfg0.N = 128 from N_0)
  by_cases h0 : t.val % 64 = 0
  · have h1 : ¬t.val % 64 = 63 := by omega
    exact ((congrArg Prod.snd (outsAt0_A m c t h0 h1)).trans
      (scratch_first c (grid0.coords t) (ms0_0 t) (hs0_0 t) (ms0_1 t) (hs0_1 t) (ms0_2 t) (hs0_2 t) scM0_0 (Memref.isWhole_whole _)
        ((hcond0_0 t).mpr h0) (fun hh => h1 ((hcond0_1 t).mp hh)) (iblk m c 0 t) (iblk m c 1 t))).trans
      (accAt_first m c t.val t.isLt h0).symm
  · by_cases h1 : t.val % 64 = 63
    · exact ((congrArg Prod.snd (outsAt0_C m c t h0 h1)).trans
        (scratch_last c (grid0.coords t) (ms0_0 t) (hs0_0 t) (ms0_1 t) (hs0_1 t) (ms0_2 t) (hs0_2 t) scM0_0 (Memref.isWhole_whole _)
          (fun hh => h0 ((hcond0_0 t).mp hh)) ((hcond0_1 t).mpr h1) (iblk m c 0 t) (iblk m c 1 t)
          (outsAt0 m c (t.val - 1) (Nat.lt_of_le_of_lt (Nat.sub_le _ _) t.isLt)).2)).trans
        ((congrArg (k0_pay4 (iblk m c 0 t) (iblk m c 1 t)) (ih h0)).trans (accAt_pred m c t h0).symm)
    · exact ((congrArg Prod.snd (outsAt0_B m c t h0 h1)).trans
        (scratch_middle c (grid0.coords t) (ms0_0 t) (hs0_0 t) (ms0_1 t) (hs0_1 t) (ms0_2 t) (hs0_2 t) scM0_0 (Memref.isWhole_whole _)
          (fun hh => h0 ((hcond0_0 t).mp hh)) (fun hh => h1 ((hcond0_1 t).mp hh)) (iblk m c 0 t) (iblk m c 1 t)
          (outsAt0 m c (t.val - 1) (Nat.lt_of_le_of_lt (Nat.sub_le _ _) t.isLt)).2)).trans
        ((congrArg (k0_pay4 (iblk m c 0 t) (iblk m c 1 t)) (ih h0)).trans (accAt_pred m c t h0).symm)

/-- The carried scratch the generated run tracks step by step is this accumulator. -/
theorem outsAt_scratch (c : Dev nD) (n : ℕ) : ∀ h : n < cfg0.N, (outsAt0 m c n h).2 = accAt m c n h := by
  induction n using Nat.strong_induction_on with
  | _ n ih =>
    intro h
    exact scratch_step m c ⟨n, h⟩ fun h0 =>
      ih (n - 1) (Nat.sub_lt (Nat.pos_of_ne_zero fun e => h0 (show n % 64 = 0 by rw [e])) Nat.one_pos) _

/-- At the last step of a half the output block is the broadcast of the accumulator there. -/
theorem outsAt_block (c : Dev nD) (t : Fin cfg0.N) (h1 : t.val % 64 = 63) :
    (outsAt0 m c t.val t.isLt).1 = k0_pay2 (accAt m c t.val t.isLt) := by
  have h0 : ¬t.val % 64 = 0 := by omega
  exact ((congrArg Prod.fst (outsAt0_C m c t h0 h1)).trans
    (out_last c (grid0.coords t) (ms0_0 t) (hs0_0 t) (ms0_1 t) (hs0_1 t) (ms0_2 t) (hs0_2 t) scM0_0 (Memref.isWhole_whole _)
      (fun hh => h0 ((hcond0_0 t).mp hh)) ((hcond0_1 t).mpr h1) (iblk m c 0 t) (iblk m c 1 t)
      (outsAt0 m c (t.val - 1) (Nat.lt_of_le_of_lt (Nat.sub_le _ _) t.isLt)).2)).trans
    (congrArg k0_pay2 ((congrArg (k0_pay4 (iblk m c 0 t) (iblk m c 1 t))
      (outsAt_scratch m c (t.val - 1) (Nat.lt_of_le_of_lt (Nat.sub_le _ _) t.isLt))).trans (accAt_pred m c t h0).symm))

end Cert.KernelIdeal.Acc

end
-- ==== Proof.Consts.lean ====
/-
  The float constants of the two programs, as the extended reals their bit patterns denote.

  Only three values matter to the mathematics: the zero every sum starts from, the factor two of the expanded square,
  and the floor under the norm, of which only "a positive real" is used. The margin one half and the row count
  two to the twentieth stand at the same place on both sides and are never evaluated.
-/
import Idealize.ShloMosaic.PureOps.Ideal
import Idealize.ShloMosaic.PureOps.Ideal.Laws

noncomputable section

namespace Cert.Triplet

open Idealize.ShloMosaic

/-- The pattern of `+0.0` denotes zero. -/
theorem ofBits_zero : Ideal.ofBits .f32 0x00000000#32 = 0 := Ideal.ofBits_zero_f32

/-- The pattern of `2.0` denotes the real two. -/
theorem ofBits_two : Ideal.ofBits .f32 0x40000000#32 = ((2 : ℝ) : EReal) := by
  simp [Ideal.ofBits, Ideal.ieee, -EReal.coe_mul]; norm_num

/-- The floor under the norm denotes a positive real (about 1e-12; its exact value is never used). -/
theorem ofBits_floor : ∃ e : ℝ, 0 < e ∧ Ideal.ofBits .f32 0x2B8CBCCC#32 = (e : EReal) := by
  refine ⟨(1 * (2 ^ 23 + 834764 : ℕ) * (2 : ℝ) ^ ((87 : ℤ) - (2 ^ (8 - 1) - 1) - 23) : ℝ), by positivity, ?_⟩
  simp [Ideal.ofBits, Ideal.ieee, -EReal.coe_mul]

end Cert.Triplet

end
-- ==== Proof.RowAlgebra.lean ====
/-
  The loss of one row, written two ways, and why the two agree on a real row.

  For a row `p` of predictions and `t` of targets put `d = Σ p·t`, `pp = Σ p·p`, `tt = Σ t·t`, and let
  `n = p − d·t` be the prediction with its component along the target removed. One way forms `n` entry by entry,
  takes its norm `√(Σ n·n)` floored by a small positive constant, divides every entry of `n` by that, and sums
  `p·(n / norm)`. The other never forms `n`: it uses

      Σ n·n = pp − 2·d·d + d·d·tt = pp + d·d·(tt − 2)        and        Σ p·n = pp − d·d ,

  takes the square root of the first (clamped below at zero, which changes nothing since it is a sum of squares),
  floors it the same way and divides the second by it ONCE. Dividing each term of a finite sum by a nonzero real
  and dividing the sum are the same, so the two similarities agree, and with them the hinge
  `max (margin + similarity − d) 0`. All of this is arithmetic of real numbers: on the extended reals the
  distributive steps fail at the infinities, which is why the rows are assumed real.
-/
import proofs.«110982_j22832046145612_2_alg».proof.Proof.Consts
import Mathlib.Analysis.SpecialFunctions.Sqrt
import Mathlib.Algebra.BigOperators.Ring.Finset
import Mathlib.Algebra.Order.BigOperators.Ring.Finset

noncomputable section

namespace Cert.Triplet

open Idealize.ShloMosaic

variable {ι : Type*} [Fintype ι]

/-- The coercion of the reals into the extended reals commutes with finite sums. -/
theorem coe_sum (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

/-- The coercion is monotone, so it commutes with the maximum of two reals. -/
theorem coe_max (a b : ℝ) : ((max a b : ℝ) : EReal) = max (a : EReal) (b : EReal) :=
  EReal.coe_strictMono.monotone.map_max

/-- The squared norm of `p − d·t`, for `d = Σ p·t`, expanded: `pp + d·d·(tt − 2)`. -/
theorem sq_norm_residual (p t : ι → ℝ) :
    ∑ k, (p k - (∑ j, p j * t j) * t k) * (p k - (∑ j, p j * t j) * t k)
      = (∑ k, p k * p k) + ((∑ j, p j * t j) * (∑ j, p j * t j)) * ((∑ k, t k * t k) - 2) := by
  generalize hd : ∑ j, p j * t j = d
  have e : ∀ k, (p k - d * t k) * (p k - d * t k) = p k * p k - 2 * d * (p k * t k) + d * d * (t k * t k) := by
    intro k; ring
  simp only [e, Finset.sum_add_distrib, Finset.sum_sub_distrib, ← Finset.mul_sum]
  rw [hd]; ring

/-- `Σ p·((p − d·t)·c) = (pp − d·d)·c`, for `d = Σ p·t`: scaling every term of the sum scales the sum. -/
theorem dot_residual (p t : ι → ℝ) (c : ℝ) :
    ∑ k, p k * ((p k - (∑ j, p j * t j) * t k) * c)
      = ((∑ k, p k * p k) - (∑ j, p j * t j) * (∑ j, p j * t j)) * c := by
  generalize hd : ∑ j, p j * t j = d
  have e : ∀ k, p k * ((p k - d * t k) * c) = c * (p k * p k) - d * c * (p k * t k) := by intro k; ring
  simp only [e, Finset.sum_sub_distrib, ← Finset.mul_sum]
  rw [hd]; ring

/-- The margin, the floor under the norm, the factor two and zero, as the programs spell them. -/
abbrev margin : EReal := Ideal.ofBits .f32 0x3F000000#32
abbrev floor : EReal := Ideal.ofBits .f32 0x2B8CBCCC#32
abbrev two : EReal := Ideal.ofBits .f32 0x40000000#32
abbrev zero : EReal := Ideal.ofBits .f32 0x00000000#32

/-- One row's loss from the three dot products `d`, `pp`, `tt` alone. -/
def lossOfDots (p t : ι → EReal) : EReal :=
  max ((margin + Ideal.div ((∑ k, p k * p k) - (∑ k, p k * t k) * (∑ k, p k * t k))
      (max (Ideal.sqrt (max ((∑ k, p k * p k) + ((∑ k, p k * t k) * (∑ k, p k * t k)) * ((∑ k, t k * t k) - two)) zero)) floor))
    - (∑ k, p k * t k)) zero

/-- One row's loss through the normalised residual `(p − d·t) / max ‖p − d·t‖ floor`. -/
def lossOfResidual (p t : ι → EReal) : EReal :=
  max ((margin + ∑ k, p k * Ideal.div (p k - (∑ j, p j * t j) * t k)
      (max (Ideal.sqrt (∑ k, (p k - (∑ j, p j * t j) * t k) * (p k - (∑ j, p j * t j) * t k))) floor))
    - (∑ k, p k * t k)) zero

/-- On a real row the two losses agree. -/
theorem lossOfDots_eq_lossOfResidual (p t : ι → ℝ) :
    lossOfDots (fun k => (p k : EReal)) (fun k => (t k : EReal))
      = lossOfResidual (fun k => (p k : EReal)) (fun k => (t k : EReal)) := by
  obtain ⟨e, he, hfl⟩ := ofBits_floor
  unfold lossOfDots lossOfResidual
  simp only [floor, two, zero, hfl, ofBits_two, ofBits_zero]
  simp only [← EReal.coe_mul, ← coe_sum, ← EReal.coe_sub, ← EReal.coe_add]
  -- the squared norm: a sum of squares, so nonnegative, and equal to the expanded form
  have hq := sq_norm_residual p t
  have hq0 : 0 ≤ ∑ k, (p k - (∑ j, p j * t j) * t k) * (p k - (∑ j, p j * t j) * t k) :=
    Finset.sum_nonneg fun k _ => mul_self_nonneg _
  rw [← hq]
  rw [show (0 : EReal) = ((0 : ℝ) : EReal) from rfl, ← coe_max, max_eq_left hq0]
  rw [Ideal.sqrt_coe, if_neg (not_lt.2 hq0), ← coe_max]
  have hn : max (Real.sqrt (∑ k, (p k - (∑ j, p j * t j) * t k) * (p k - (∑ j, p j * t j) * t k))) e ≠ 0 :=
    ne_of_gt (lt_of_lt_of_le he (le_max_right _ _))
  simp only [Ideal.div_coe hn, ← EReal.coe_mul, ← coe_sum]
  rw [dot_residual p t]

end Cert.Triplet

end
-- ==== Proof.BlockLoss.lean ====
/-
  What one grid step adds to the running total, read on the extended reals.

  The body multiplies the two blocks entrywise three ways (p·t, p·p, t·t), sums each product along the lanes into a
  column of 8192 row values, forms the hinge loss of every row from its three values alone, sums the column, and adds
  that to the one-entry accumulator. Read at its single entry the new accumulator is therefore the old one plus the sum
  over the block's 8192 rows of the row loss written from the three dot products.
-/
import proofs.«110982_j22832046145612_2_alg».proof.Proof.Gen.KernelIdeal.Skeleton
import proofs.«110982_j22832046145612_2_alg».proof.Proof.RowAlgebra
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BlockLoss

open Idealize.ShloMosaic Idealize.ShloMosaic.ValueIdx Cert.KernelIdeal Cert.KernelIdeal.Gen Cert.Triplet

/-- A lane sum kept as a column: the [a, b] array summed along its second axis and recast to [a, 1] reads, at row
    `r`, the sum of row `r`. -/
theorem laneSum_column_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (r : Fin a) (u : Fin 1) :
    shapeCast ⟨2, ![a, 1]⟩ (multiReduction .add [1] ⟨1, ![a]⟩ v 0x00000000#32 h hφ hacc) hc (ix2 r u)
      = ∑ k : Fin b, v (ix2 r k) := by
  refine (shapeCast_apply _ hc (ix2 r u) (ix1 r) ?_).trans ?_
  · have hu : u.val = 0 := by omega
    rw [Shape.rowMajor_val_two, Shape.rowMajor_val_one]
    show r.val = r.val * 1 + u.val
    omega
  · refine (Ideal.multiReduction_add_single v 0x00000000#32 h hφ hacc (ix1 r)).trans ?_
    refine Finset.sum_congr rfl fun k _ => congrArg v ?_
    funext c
    match c with
    | ⟨0, _⟩ => exact Fin.ext rfl
    | ⟨1, _⟩ => exact Fin.ext rfl

/-- A column summed to one entry: the [a, 1] array summed along its first axis and recast to [1, 1] reads, at its
    entry, the sum of the column. -/
theorem columnSum_apply {a : ℕ} (v : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ)
    (hc : (⟨1, ![1]⟩ : Shape).ShapeCasts ⟨2, ![1, 1]⟩) (u w : Fin 1) :
    shapeCast ⟨2, ![1, 1]⟩ (multiReduction .add [0] ⟨1, ![1]⟩ v 0x00000000#32 h hφ hacc) hc (ix2 u w)
      = ∑ r : Fin a, v (ix2 r (0 : Fin 1)) := by
  refine (shapeCast_a_1a_apply _ hc u w).trans ?_
  refine (Ideal.multiReduction_add_single v 0x00000000#32 h hφ hacc (ix1 w)).trans ?_
  refine Finset.sum_congr rfl fun k _ => congrArg v ?_
  funext c
  match c with
  | ⟨0, _⟩ => exact Fin.ext rfl
  | ⟨1, _⟩ => exact Fin.ext (by show (w : ℕ) = 0; omega)

/-- The column of row dot products of two blocks. -/
def rowDots (x y : FVec Ideal S8192x128 .f32) : FVec Ideal S8192x1 .f32 :=
  shapeCast S8192x1 (multiReduction .add [1] S8192 (mulf x y) 0x00000000#32 reduces_S8192x128_S8192 (.inl rfl) rfl)
    shapeCasts_S8192_S8192x1

theorem rowDots_apply (x y : FVec Ideal S8192x128 .f32) (r : Fin 8192) (u : Fin 1) :
    rowDots x y (ix2 r u) = ∑ k : Fin 128, x (ix2 r k) * y (ix2 r k) :=
  laneSum_column_apply (mulf x y) reduces_S8192x128_S8192 (.inl rfl) rfl shapeCasts_S8192_S8192x1 r u

/-- The hinge loss of every row of a block from the three columns `d = Σ p·t`, `pp = Σ p·p`, `tt = Σ t·t`. -/
def hinge (d pp tt : FVec Ideal S8192x1 .f32) : FVec Ideal S8192x1 .f32 :=
  maximumf (subf (addf (broadcast S8192x1 (Scalar.ofBits .f32 0x3F000000#32))
      (divf (subf pp (mulf d d))
        (maximumf (sqrt (maximumf (addf pp (mulf (mulf d d) (subf tt (broadcast S8192x1 (Scalar.ofBits .f32 0x40000000#32)))))
            (broadcast S8192x1 (Scalar.ofBits .f32 0x00000000#32))))
          (broadcast S8192x1 (Scalar.ofBits .f32 0x2B8CBCCC#32))))) d)
    (broadcast S8192x1 (Scalar.ofBits .f32 0x00000000#32))

/-- The body's new accumulator is the old one plus the column sum of the hinge of the three row dot products. -/
theorem pay4_eq (x0 x1 : Vec Ideal S8192x128 .f32) (acc : Vec Ideal S1x1 .f32) :
    k0_pay4 (F := Ideal) x0 x1 acc
      = addf acc (shapeCast S1x1 (multiReduction .add [0] S1 (hinge (rowDots x0 x1) (rowDots x0 x0) (rowDots x1 x1))
          0x00000000#32 reduces_S8192x1_S1 (.inl rfl) rfl) shapeCasts_S1_S1x1) := rfl

/-- Read at its entry: the old accumulator plus the sum over the block's rows of the row loss. -/
theorem pay4_apply (x0 x1 : Vec Ideal S8192x128 .f32) (acc : Vec Ideal S1x1 .f32) (u w : Fin 1) :
    k0_pay4 (F := Ideal) x0 x1 acc (ix2 u w)
      = acc (ix2 u w) + ∑ r : Fin 8192, lossOfDots (fun k : Fin 128 => x0 (ix2 r k)) (fun k : Fin 128 => x1 (ix2 r k)) := by
  rw [pay4_eq]
  show acc (ix2 u w) + _ = _
  refine congrArg (acc (ix2 u w) + ·) ?_
  refine (columnSum_apply _ reduces_S8192x1_S1 (.inl rfl) rfl shapeCasts_S1_S1x1 u w).trans ?_
  refine Finset.sum_congr rfl fun r _ => ?_
  show max ((_ + Ideal.div (rowDots x0 x0 (ix2 r 0) - rowDots x0 x1 (ix2 r 0) * rowDots x0 x1 (ix2 r 0))
      (max (Ideal.sqrt (max (rowDots x0 x0 (ix2 r 0) + (rowDots x0 x1 (ix2 r 0) * rowDots x0 x1 (ix2 r 0)) * (rowDots x1 x1 (ix2 r 0) - _)) _)) _))
      - rowDots x0 x1 (ix2 r 0)) _ = _
  rw [rowDots_apply, rowDots_apply, rowDots_apply]
  rfl

end Cert.KernelIdeal.BlockLoss

end
-- ==== Proof.LibBlockedSum.lean ====
/-
  A finite sum taken block by block. A sum over the first `a * b` naturals, cut into `a` consecutive blocks of
  length `b`, is the sum over the blocks of each block's sum: block `s` holds the naturals `b * s + j`, `j < b`.
  This is only associativity and commutativity of the addition, so it holds in every commutative additive monoid —
  in particular on the extended reals, where nothing about finiteness is asked. Stated three ways: over ranges, with
  the inner sum over `Fin b`, and with the outer sum over `Fin n` for `n = a * b`.
-/
import Mathlib.Algebra.BigOperators.Fin
import Mathlib.Algebra.BigOperators.Intervals

namespace BlockedSum

open Finset

variable {β : Type*} [AddCommMonoid β]

/-- The sum over `range (a * b)` is the sum over the `a` blocks of the sums over each block's `b` members. -/
theorem sum_range_blocks (a b : ℕ) (g : ℕ → β) :
    ∑ s ∈ range a, ∑ j ∈ range b, g (b * s + j) = ∑ h ∈ range (a * b), g h := by
  induction a with
  | zero => simp
  | succ a ih =>
    rw [sum_range_succ, ih, Nat.succ_mul, sum_range_add, Nat.mul_comm a b]

/-- The same with each block's members indexed by `Fin b`. -/
theorem sum_range_blocks_fin (a b : ℕ) (g : ℕ → β) :
    ∑ s ∈ range a, ∑ j : Fin b, g (b * s + j.val) = ∑ h ∈ range (a * b), g h := by
  rw [← sum_range_blocks a b g]
  exact sum_congr rfl fun s _ => (Finset.sum_range fun j => g (b * s + j)).symm

/-- … and the whole sum indexed by `Fin n`, `n = a * b`: the form in which a contraction over an axis of extent `n`
    meets the same contraction accumulated tile by tile. -/
theorem sum_fin_blocks (a b n : ℕ) (hn : n = a * b) (g : ℕ → β) :
    ∑ s ∈ range a, ∑ j : Fin b, g (b * s + j.val) = ∑ h : Fin n, g h.val := by
  subst hn
  rw [sum_range_blocks_fin, Finset.sum_range]

end BlockedSum
-- ==== Proof.Spec.lean ====
/-
  The total the two programs compute, as sums of per-row losses over the 1048576 rows.

  The reference sums the loss of every row at once. The kernel walks the rows in 128 consecutive blocks of 8192, in
  two halves of 64 blocks: within a half it keeps a running total of the block totals, restarted at the half's first
  block, and the two halves' totals are added at the end. Addition of extended reals is associative and commutative,
  so the regrouping — rows into blocks, blocks into halves — changes nothing, with no finiteness asked.
-/
import proofs.«110982_j22832046145612_2_alg».proof.Proof.RowAlgebra
import proofs.«110982_j22832046145612_2_alg».proof.Proof.LibBlockedSum
import Idealize.ShloMosaic.Lib.ValueIdx

noncomputable section

namespace Cert.Triplet

open Idealize.ShloMosaic Idealize.ShloMosaic.ValueIdx Finset

/-- The shape of both argument arrays: 1048576 rows of 128 lanes. -/
abbrev SArr : Shape := ⟨2, ![1048576, 128]⟩

/-- Row `n` of an array. -/
def row (X : SArr.Idx → EReal) (n : ℕ) (h : n < 1048576) : Fin 128 → EReal := fun k => X (ix2 ⟨n, h⟩ k)

/-- The loss of row `n` from its three dot products (zero past the last row, which no sum below reaches). -/
def rowLossDots (P T : SArr.Idx → EReal) (n : ℕ) : EReal :=
  if h : n < 1048576 then lossOfDots (row P n h) (row T n h) else 0

/-- The loss of row `n` through its normalised residual. -/
def rowLossResidual (P T : SArr.Idx → EReal) (n : ℕ) : EReal :=
  if h : n < 1048576 then lossOfResidual (row P n h) (row T n h) else 0

/-- When every entry of both arrays is real the two row losses agree on every row. -/
theorem rowLossDots_eq_rowLossResidual (P T : SArr.Idx → EReal) (hP : ∀ i, ∃ x : ℝ, P i = x) (hT : ∀ i, ∃ x : ℝ, T i = x)
    (n : ℕ) : rowLossDots P T n = rowLossResidual P T n := by
  unfold rowLossDots rowLossResidual
  by_cases h : n < 1048576
  · rw [dif_pos h, dif_pos h]
    choose p hp using hP
    choose q hq using hT
    have e1 : row P n h = fun k => ((p (ix2 ⟨n, h⟩ k) : ℝ) : EReal) := funext fun k => hp _
    have e2 : row T n h = fun k => ((q (ix2 ⟨n, h⟩ k) : ℝ) : EReal) := funext fun k => hq _
    rw [e1, e2]
    exact lossOfDots_eq_lossOfResidual _ _
  · rw [dif_neg h, dif_neg h]

/-- The total of block `s`: its 8192 consecutive rows. -/
def blockTotal (f : ℕ → EReal) (s : ℕ) : EReal := ∑ r : Fin 8192, f (8192 * s + r.val)

/-- The running total within a half after block `n`: the blocks from the half's first, `n - n % 64`, up to `n`. -/
def runningTotal (g : ℕ → EReal) (n : ℕ) : EReal := ∑ j ∈ range (n % 64 + 1), g (n - n % 64 + j)

theorem runningTotal_first (g : ℕ → EReal) (n : ℕ) (h0 : n % 64 = 0) : runningTotal g n = g n := by
  unfold runningTotal
  rw [h0, Nat.sub_zero, Finset.sum_range_one, Nat.add_zero]

theorem runningTotal_next (g : ℕ → EReal) (n : ℕ) (h0 : ¬(n + 1) % 64 = 0) :
    runningTotal g (n + 1) = runningTotal g n + g (n + 1) := by
  have e1 : (n + 1) % 64 = n % 64 + 1 := by omega
  have e2 : n + 1 - (n + 1) % 64 = n - n % 64 := by omega
  have e3 : n - n % 64 + (n % 64 + 1) = n + 1 := by omega
  unfold runningTotal
  rw [e2, e1, Finset.sum_range_succ, e3]

/-- The same, looking back from `n`. -/
theorem runningTotal_pred (g : ℕ → EReal) (n : ℕ) (h0 : ¬n % 64 = 0) :
    runningTotal g n = runningTotal g (n - 1) + g n := by
  obtain ⟨k, rfl⟩ : ∃ k, n = k + 1 := ⟨n - 1, by omega⟩
  rw [Nat.add_sub_cancel]
  exact runningTotal_next g k h0

/-- A half's final total: its 64 blocks. -/
theorem runningTotal_last (g : ℕ → EReal) (c : ℕ) : runningTotal g (64 * c + 63) = ∑ j ∈ range 64, g (64 * c + j) := by
  have e1 : (64 * c + 63) % 64 = 63 := by omega
  unfold runningTotal
  rw [e1, show 64 * c + 63 - 63 = 64 * c from by omega]

/-- The two halves' totals added are the sum over all rows. -/
theorem halves_eq_total (f : ℕ → EReal) :
    ∑ c ∈ range 2, runningTotal (blockTotal f) (64 * c + 63) = ∑ n : Fin 1048576, f n.val := by
  simp only [runningTotal_last]
  rw [BlockedSum.sum_range_blocks 2 64 (blockTotal f)]
  exact BlockedSum.sum_fin_blocks 128 8192 1048576 (by norm_num) f

end Cert.Triplet

end
-- ==== Proof.KernelValue.lean ====
/-
  The kernel's result on the extended reals: the sum of the row losses over all rows, divided by the row count.

  Step `t` of the grid reads rows `8192·t … 8192·t + 8191` of both arrays, so what it adds to the accumulator is the
  total of block `t`, and the accumulator's entry after step `t` is the running total of its half. The last step of
  half `c` broadcasts that half's total over slab `c` of the [2, 8, 128] output; the two slabs are written by steps 63
  and 127 and between them cover the output. The host lines after the call take entry (c, 0, 0) of each slab, add the
  two from zero, and divide by the row count: the two halves' totals added are the sum over all rows.
-/
import proofs.«110982_j22832046145612_2_alg».proof.Proof.Accumulate
import proofs.«110982_j22832046145612_2_alg».proof.Proof.BlockLoss
import proofs.«110982_j22832046145612_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Acc Cert.KernelIdeal.BlockLoss Cert.Triplet
open Idealize.ShloMosaic.ValueIdx

variable (m : (ℓ : Loc nD τ sig) → Buf (Elt Ideal) ℓ) (ρ : Dev nD → PrngReg)

/-- The predictions and the targets as the call finds them: the first window stages the second argument. -/
abbrev preds (c : Dev nD) : SArr.Idx → EReal := m ((c : Thread nD τ).loc main_arg1)
abbrev targets (c : Dev nD) : SArr.Idx → EReal := m ((c : Thread nD τ).loc main_arg0)

/-- The loss of row `n`, from its dot products. -/
abbrev rowLoss (c : Dev nD) : ℕ → EReal := rowLossDots (preds m c) (targets m c)

/-- The printed index maps over the grid: both inputs' block index is the step, the output's the half. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 64 ∧ win0_2.index t (1 : Fin 3) = 0 ∧ win0_2.index t (2 : Fin 3) = 0 :=
  (by decide +kernel : ∀ t : Fin grid0.N, _)

/-- Step `t`'s block of the predictions is rows `8192·t + r`. -/
theorem iblk0_apply (c : Dev nD) (t : Fin cfg0.N) (r : Fin 8192) (k : Fin 128) (h : 8192 * t.val + r.val < 1048576) :
    (iblk m c 0 t : Vec Ideal S8192x128 .f32) (ix2 r k) = preds m c (ix2 ⟨8192 * t.val + r.val, h⟩ k) := by
  obtain ⟨e0, e1, -⟩ := idx_facts t
  unfold iblk
  rw [View.read_apply]
  show V m c main_arg1 _ = m (c.tc.loc main_arg1) _
  refine congrArg (m (c.tc.loc main_arg1)) ?_
  funext a
  apply Fin.ext
  match a with
  | ⟨0, _⟩ => show win0_0.index t (0 : Fin 2) * 8192 + 1 * r.val = 8192 * t.val + r.val; rw [e0]; omega
  | ⟨1, _⟩ => show win0_0.index t (1 : Fin 2) * 128 + 1 * k.val = k.val; rw [e1]; omega

/-- Step `t`'s block of the targets is the same rows. -/
theorem iblk1_apply (c : Dev nD) (t : Fin cfg0.N) (r : Fin 8192) (k : Fin 128) (h : 8192 * t.val + r.val < 1048576) :
    (iblk m c 1 t : Vec Ideal S8192x128 .f32) (ix2 r k) = targets m c (ix2 ⟨8192 * t.val + r.val, h⟩ k) := by
  obtain ⟨-, -, e2, e3, -⟩ := idx_facts t
  unfold iblk
  rw [View.read_apply]
  show V m c main_arg0 _ = m (c.tc.loc main_arg0) _
  refine congrArg (m (c.tc.loc main_arg0)) ?_
  funext a
  apply Fin.ext
  match a with
  | ⟨0, _⟩ => show win0_1.index t (0 : Fin 2) * 8192 + 1 * r.val = 8192 * t.val + r.val; rw [e2]; omega
  | ⟨1, _⟩ => show win0_1.index t (1 : Fin 2) * 128 + 1 * k.val = k.val; rw [e3]; omega

/-- One step adds the total of its block to the accumulator's entry. -/
theorem block_step (c : Dev nD) (t : Fin cfg0.N) (acc : Vec Ideal S1x1 .f32) :
    k0_pay4 (F := Ideal) (iblk m c 0 t) (iblk m c 1 t) acc (ix2 0 0) = acc (ix2 0 0) + blockTotal (rowLoss m c) t.val := by
  have hN : t.val < 128 := lt_of_lt_of_eq t.isLt (show cfg0.N = 128 from N_0)
  refine (pay4_apply (iblk m c 0 t) (iblk m c 1 t) acc 0 0).trans ?_
  refine congrArg (acc (ix2 0 0) + ·) (Finset.sum_congr rfl fun r _ => ?_)
  have hr : 8192 * t.val + r.val < 1048576 := by have := r.isLt; omega
  show _ = rowLossDots (preds m c) (targets m c) (8192 * t.val + r.val)
  unfold rowLossDots
  rw [dif_pos hr]
  exact congrArg₂ lossOfDots (funext fun k => iblk0_apply m c t r k hr) (funext fun k => iblk1_apply m c t r k hr)

/-- The reset value's entry is zero. -/
theorem reset_entry : k0_pay3 (F := Ideal) (ix2 0 0) = 0 := by
  unfold k0_pay3
  rw [shapeCast_self]
  exact ofBits_zero

/-- One step of the induction on the accumulator's entry. -/
theorem entry_step (c : Dev nD) (t : Fin cfg0.N)
    (ih : ¬t.val % 64 = 0 → accAt m c (t.val - 1) (Nat.lt_of_le_of_lt (Nat.sub_le _ _) t.isLt) (ix2 0 0)
      = runningTotal (blockTotal (rowLoss m c)) (t.val - 1)) :
    accAt m c t.val t.isLt (ix2 0 0) = runningTotal (blockTotal (rowLoss m c)) t.val := by
  by_cases h0 : t.val % 64 = 0
  · rw [accAt_first m c t.val t.isLt h0, runningTotal_first _ _ h0]
    refine (block_step m c t _).trans ?_
    rw [reset_entry, zero_add]
  · rw [accAt_pred m c t h0, runningTotal_pred _ _ h0]
    refine (block_step m c t _).trans ?_
    rw [ih h0]

/-- The accumulator's entry after step `n` is the running total of its half. -/
theorem acc_entry (c : Dev nD) (n : ℕ) : ∀ h : n < cfg0.N, accAt m c n h (ix2 0 0) = runningTotal (blockTotal (rowLoss m c)) n := by
  induction n using Nat.strong_induction_on with
  | _ n ih =>
    intro h
    exact entry_step m c ⟨n, h⟩ fun h0 =>
      ih (n - 1) (Nat.sub_lt (Nat.pos_of_ne_zero fun e => h0 (show n % 64 = 0 by rw [e])) Nat.one_pos) _

/-- The output after the call: slab `c` holds half `c`'s total at every entry. -/
def outArr (c : Dev nD) : Buf (Elt Ideal) ((c : Thread nD τ).loc main_v0) :=
  fun i => runningTotal (blockTotal (rowLoss m c)) (64 * (i 0).val + 63)

/-- What a last step of a half writes back is its slab of that array. -/
theorem flushed_eq (c : Dev nD) (t : Fin cfg0.N) (hf : (cfg0.win 2).flush t = true) :
    (dats m 0 c).flushed 2 t = ((cfg0.win 2).blk t).view.read (Elt Ideal) (outArr m c) := by
  have h1 : t.val % 64 = 63 := (flush0_2 t).mp hf
  obtain ⟨-, -, -, -, e4, -⟩ := idx_facts t
  show (cfg0.win 2).cut (grid0.coords t) ((dats m 0 c).after 2 t) = _
  rw [after0_2, outsAt_block m c t h1]
  funext y
  show accAt m c t.val t.isLt (fun a => ⟨(![0, 0] : Fin 2 → ℕ) a, inpos_S1x1_p0_0 a⟩) = outArr m c (((cfg0.win 2).blk t).view.emb y)
  have e : (fun a => (⟨(![0, 0] : Fin 2 → ℕ) a, inpos_S1x1_p0_0 a⟩ : Fin (S1x1.size a))) = ix2 (0 : Fin 1) (0 : Fin 1) :=
    funext fun a => by match a with | ⟨0, _⟩ => rfl | ⟨1, _⟩ => rfl
  rw [e, acc_entry m c t.val t.isLt]
  unfold outArr
  refine congrArg (runningTotal (blockTotal (rowLoss m c))) ?_
  have hy : (y 0).val < 1 := (y 0).isLt
  show t.val = 64 * (win0_2.index t (0 : Fin 3) * 1 + 1 * (y 0).val) + 63
  rw [e4]
  omega

/-- An index is in step `t`'s block iff each coordinate is in the block's range. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- So the output ends holding the two halves' totals, slab by slab. -/
theorem final_out (c : Dev nD) : (dats m 0 c).arrAt 2 cfg0.N = outArr m c :=
  (dats m 0 c).arrAt_eq_of_cover 2 (outArr m c) (flushed_eq m c) fun i => by
    have h0 : (i 0).val < 2 := (i 0).isLt
    have h1 : (i 1).val < 8 := (i 1).isLt
    have h2 : (i 2).val < 128 := (i 2).isLt
    have hN : 64 * (i 0).val + 63 < cfg0.N := by rw [show cfg0.N = 128 from N_0]; omega
    refine ⟨⟨64 * (i 0).val + 63, hN⟩, (flush0_2 _).mpr (by show (64 * (i 0).val + 63) % 64 = 63; omega), ?_⟩
    obtain ⟨-, -, -, -, e4, e5, e6⟩ := idx_facts ⟨64 * (i 0).val + 63, hN⟩
    rw [mem_blk]
    intro a
    match a with
    | ⟨0, _⟩ =>
      show win0_2.index ⟨64 * (i 0).val + 63, hN⟩ (0 : Fin 3) * 1 ≤ (i 0).val ∧ (i 0).val < win0_2.index ⟨64 * (i 0).val + 63, hN⟩ (0 : Fin 3) * 1 + 1
      rw [e4]; show (64 * (i 0).val + 63) / 64 * 1 ≤ (i 0).val ∧ (i 0).val < (64 * (i 0).val + 63) / 64 * 1 + 1; omega
    | ⟨1, _⟩ =>
      show win0_2.index ⟨64 * (i 0).val + 63, hN⟩ (1 : Fin 3) * 8 ≤ (i 1).val ∧ (i 1).val < win0_2.index ⟨64 * (i 0).val + 63, hN⟩ (1 : Fin 3) * 8 + 8
      rw [e5]; omega
    | ⟨2, _⟩ =>
      show win0_2.index ⟨64 * (i 0).val + 63, hN⟩ (2 : Fin 3) * 128 ≤ (i 2).val ∧ (i 2).val < win0_2.index ⟨64 * (i 0).val + 63, hN⟩ (2 : Fin 3) * 128 + 128
      rw [e6]; omega

end Cert.KernelIdeal.KValue

end
-- ==== Proof.LibRankOneSum.lean ====
/-
  A sum over the indices of a rank-one shape is the sum over its one coordinate.

  An index of the shape [n] is a function from the one axis to `Fin n`; sending it to its value on that axis is a
  bijection onto `Fin n`, with `ix1` as inverse. So a sum indexed by the shape's indices — the form in which a total
  reduction over a vector is read — is the same sum indexed by `Fin n`, in any commutative additive monoid.
-/
import Idealize.ShloMosaic.Lib.ValueIdx
import Mathlib.Algebra.BigOperators.Group.Finset.Basic

namespace RankOneSum

open Idealize.ShloMosaic Idealize.ShloMosaic.ValueIdx

/-- The indices of the shape [n] correspond to `Fin n`. -/
def idxEquiv1 {n : ℕ} : (⟨1, ![n]⟩ : Shape).Idx ≃ Fin n where
  toFun j := j 0
  invFun k := ix1 k
  left_inv j := (eq_ix1 j).symm
  right_inv _ := rfl

/-- A sum over the indices of [n] is the sum over `k : Fin n` at the index `ix1 k`. -/
theorem sum_idx1 {M : Type*} [AddCommMonoid M] {n : ℕ} (f : (⟨1, ![n]⟩ : Shape).Idx → M) :
    ∑ j, f j = ∑ k : Fin n, f (ix1 k) :=
  Fintype.sum_equiv idxEquiv1 _ _ fun j => congrArg f (eq_ix1 j)

end RankOneSum
-- ==== Proof.KernelRun.lean ====
/-
  The kernel program's run, read: its result is the mean of the row losses, its arguments unchanged.

  After the call the program slices entry (c, 0, 0) out of each of the two slabs of the output, reshapes the two
  entries to a vector, sums them from zero and divides by the row count. Each slab entry is a half's total, so the
  sum is the total over all rows.
-/
import proofs.«110982_j22832046145612_2_alg».proof.Proof.KernelValue
import proofs.«110982_j22832046145612_2_alg».proof.Proof.LibRankOneSum

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Acc Cert.KernelIdeal.BlockLoss Cert.Triplet
open Idealize.ShloMosaic.ValueIdx

variable (m : (ℓ : Loc nD τ sig) → Buf (Elt Ideal) ℓ) (ρ : Dev nD → PrngReg)

/-- The result buffer is none of the call's arrays: the lines after the call determine it. -/
theorem main_v4_rest : main_v4 ∈ Pipeline.restRefs sig (cfgs 0).spec :=
  Pipeline.mem_restRefs_of main_v4 rfl (fun w => by fin_cases w <;> decide)

/-- What the lines after the call compute from the output: the two halves' totals added, over the row count. -/
theorem tail_eq (c : Dev nD) :
    Pipeline.afterTail₀ cfgs (dats m) 0 (V0 m) [hostOps1] c main_v4
      = fun _ => Ideal.div (∑ n : Fin 1048576, rowLoss m c n.val) (Ideal.ofBits .f32 0x49800000#32) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v0)
      = outArr m c := (Pipeline.withArrays_arr spec0 launch0.win.arr_inj c _ _ 2).trans (final_out m c)
  rw [hA]
  funext j
  simp only [Host.divf, Host.reduceAdd, Ideal.hostReduceAdd_def, Ideal.hostDivf_def]
  rw [Ideal.hostReduceAdd_total reducesTo_S2_S_d0 (fun b => b.elim0), RankOneSum.sum_idx1]
  refine congrArg₂ Ideal.div ?_ rfl
  show Ideal.ofBits .f32 0x00000000#32 + ∑ k : Fin 2, _ = _
  rw [ofBits_zero, zero_add, ← halves_eq_total (rowLoss m c), Finset.sum_range]
  refine Finset.sum_congr rfl fun k _ => ?_
  show shapeCast S2 (extractStridedSlice S2x1x1 ![0, 0, 0] (outArr m c) slices_S2x8x128_S2x1x1_0_0_0) shapeCasts_S2x1x1_S2 (ix1 k) = _
  refine (shapeCast_apply _ shapeCasts_S2x1x1_S2 (ix1 k) (ix3 k (0 : Fin 1) (0 : Fin 1)) ?_).trans ?_
  · rw [Shape.rowMajor_val_three, Shape.rowMajor_val_one]
    show (k.val * 1 + 0) * 1 + 0 = k.val
    omega
  · refine (extractStridedSlice_apply _ _ slices_S2x8x128_S2x1x1_0_0_0 _ (ix3 k (0 : Fin 8) (0 : Fin 128)) fun a => ?_).trans rfl
    match a with
    | ⟨0, _⟩ => show k.val = 0 + k.val; omega
    | ⟨1, _⟩ => rfl
    | ⟨2, _⟩ => rfl

/-- The run: every fair execution ends with the result at the mean of the row losses and both arguments as they were. -/
theorem run : θ_run defs (onTc (τ := τ) (main (F := Ideal))) ⟨m, fun _ => 0, ρ⟩ fun r => ∀ c : Dev nD,
      r.2.mem ((c.tc : Thread nD τ).loc main_v4)
        = (fun _ => Ideal.div (∑ n : Fin 1048576, rowLoss m c n.val) (Ideal.ofBits .f32 0x49800000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v4 main_v4_rest).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.KValue

end
-- ==== Proof.RefValue.lean ====
/-
  The reference, read row by row on the extended reals.

  Its host operations, one at a time: the row dot product `d = Σ p·t`; the residual `p − d·t` entry by entry; the
  residual's norm `√(Σ residual²)` floored by the small constant; the similarity `Σ p·(residual / norm)`; the hinge
  `max (margin + similarity − d) 0`; and the sum of the hinge over all rows divided by the row count. Every host sum
  starts from the zero constant, which adds nothing.
-/
import proofs.«110982_j22832046145612_2_alg».proof.Proof.Gen.ReferenceIdeal.Read
import proofs.«110982_j22832046145612_2_alg».proof.Proof.Spec
import proofs.«110982_j22832046145612_2_alg».proof.Proof.LibRankOneSum
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Triplet

/-! The layout operations' index maps, at indices built from coordinates. -/

theorem idx_v1 (n : Fin 1048576) (k : Fin 128) : idx_main_v1 (ix1 n) k = ix2 n k :=
  funext fun a => Fin.ext (by match a with | ⟨0, _⟩ => rfl | ⟨1, _⟩ => rfl)
theorem idx_call0_v1 (n : Fin 1048576) (k : Fin 128) : idx_main_call0_v1 (ix1 n) k = ix2 n k :=
  funext fun a => Fin.ext (by match a with | ⟨0, _⟩ => rfl | ⟨1, _⟩ => rfl)
theorem idx_v13 (n : Fin 1048576) (k : Fin 128) : idx_main_v13 (ix1 n) k = ix2 n k :=
  funext fun a => Fin.ext (by match a with | ⟨0, _⟩ => rfl | ⟨1, _⟩ => rfl)
theorem idx_v2 (n : Fin 1048576) (u : Fin 1) : idx_main_v2 (ix2 n u) = ix1 n :=
  funext fun a => Fin.ext (by match a with | ⟨0, _⟩ => rfl)
theorem idx_call0_v2 (n : Fin 1048576) (u : Fin 1) : idx_main_call0_v2 (ix2 n u) = ix1 n :=
  funext fun a => Fin.ext (by match a with | ⟨0, _⟩ => rfl)
theorem idx_v3 (n : Fin 1048576) (k : Fin 128) : idx_main_v3 (ix2 n k) = ix2 n (0 : Fin 1) :=
  funext fun a => Fin.ext (by match a with | ⟨0, _⟩ => rfl | ⟨1, _⟩ => rfl)
theorem idx_v9 (n : Fin 1048576) (k : Fin 128) : idx_main_v9 (ix2 n k) = ix2 n (0 : Fin 1) :=
  funext fun a => Fin.ext (by match a with | ⟨0, _⟩ => rfl | ⟨1, _⟩ => rfl)
theorem idx_v11 (n : Fin 1048576) : idx_main_v11 (ix1 n) = ix2 n (0 : Fin 1) :=
  funext fun a => Fin.ext (by match a with | ⟨0, _⟩ => exact Nat.div_one _ | ⟨1, _⟩ => rfl)

/-- A host sum starts from the zero constant, which adds nothing. -/
theorem zero_start (x : EReal) : Ideal.ofBits .f32 0x00000000#32 + x = x := by rw [ofBits_zero, zero_add]

variable (T P : (⟨S1048576x128, .f32⟩ : BufTy).Contents (Elt Ideal))

/-- The row dot product. -/
theorem dot_at (n : Fin 1048576) :
    val_main_v1 (F := Ideal) T P (ix1 n) = ∑ k : Fin 128, P (ix2 n k) * T (ix2 n k) := by
  rw [val_main_v1_apply]
  simp only [idx_v1, val_main_v0_apply, val_main_cst_apply, Ideal.ofBits_def, Ideal.mulf_def, zero_start]

/-- The residual `p − d·t` at one entry. -/
theorem residual_at (n : Fin 1048576) (k : Fin 128) :
    val_main_v5 (F := Ideal) T P (ix2 n k)
      = P (ix2 n k) - (∑ j : Fin 128, P (ix2 n j) * T (ix2 n j)) * T (ix2 n k) := by
  rw [val_main_v5_apply, val_main_v4_apply, val_main_v3_apply, idx_v3, val_main_v2_apply, idx_v2, dot_at]
  rfl

/-- The floored norm of the residual. -/
theorem norm_at (n : Fin 1048576) (u : Fin 1) :
    val_main_v8 (F := Ideal) T P (ix2 n u)
      = max (Ideal.sqrt (∑ k : Fin 128, (P (ix2 n k) - (∑ j : Fin 128, P (ix2 n j) * T (ix2 n j)) * T (ix2 n k))
          * (P (ix2 n k) - (∑ j : Fin 128, P (ix2 n j) * T (ix2 n j)) * T (ix2 n k)))) floor := by
  rw [val_main_v8_apply, val_main_v6_apply, val_main_call0_v2_apply, idx_call0_v2, val_main_call0_v1_apply,
    val_main_v7_apply, val_main_cst_0_apply, val_main_call0_cst_apply]
  show max (Ideal.sqrt (Ideal.ofBits .f32 0x00000000#32
    + ∑ k : Fin 128, val_main_call0_v0 (F := Ideal) T P (idx_main_call0_v1 (ix1 n) k))) floor = _
  rw [zero_start]
  refine congrArg (fun s => max (Ideal.sqrt s) floor) (Finset.sum_congr rfl fun k _ => ?_)
  rw [idx_call0_v1, val_main_call0_v0_apply, residual_at]
  rfl

/-- The hinge of row `n`, written out. -/
theorem hinge_at (n : Fin 1048576) :
    val_main_v18 (F := Ideal) T P (ix1 n)
      = max ((margin + ∑ k : Fin 128, P (ix2 n k) * Ideal.div (P (ix2 n k) - (∑ j : Fin 128, P (ix2 n j) * T (ix2 n j)) * T (ix2 n k))
          (max (Ideal.sqrt (∑ k : Fin 128, (P (ix2 n k) - (∑ j : Fin 128, P (ix2 n j) * T (ix2 n j)) * T (ix2 n k))
            * (P (ix2 n k) - (∑ j : Fin 128, P (ix2 n j) * T (ix2 n j)) * T (ix2 n k)))) floor))
        - (∑ k : Fin 128, P (ix2 n k) * T (ix2 n k))) zero := by
  rw [val_main_v18_apply, val_main_v16_apply, val_main_v15_apply, val_main_v13_apply, val_main_v11_apply, idx_v11,
    val_main_v2_apply, idx_v2, dot_at, val_main_v14_apply, val_main_v17_apply, val_main_cst_2_apply, val_main_cst_3_apply,
    val_main_cst_1_apply]
  show max ((margin + (Ideal.ofBits .f32 0x00000000#32 + ∑ k : Fin 128, val_main_v12 (F := Ideal) T P (idx_main_v13 (ix1 n) k)))
    - (∑ k : Fin 128, P (ix2 n k) * T (ix2 n k))) zero = _
  rw [zero_start]
  refine congrArg (fun s => max ((margin + s) - (∑ k : Fin 128, P (ix2 n k) * T (ix2 n k))) zero)
    (Finset.sum_congr rfl fun k _ => ?_)
  rw [idx_v13, val_main_v12_apply, val_main_v10_apply, val_main_v9_apply, idx_v9, norm_at, residual_at]
  rfl

/-- The hinge of row `n` is that row's loss through the normalised residual. -/
theorem loss_at (n : Fin 1048576) :
    val_main_v18 (F := Ideal) T P (ix1 n) = rowLossResidual P T n.val := by
  refine (hinge_at T P n).trans ?_
  unfold rowLossResidual
  rw [dif_pos n.isLt]
  rfl

/-- The reference's result: the sum of the row losses over all rows, divided by the row count. -/
theorem result_eq :
    val_main_v20 (F := Ideal) T P
      = fun _ => Ideal.div (∑ n : Fin 1048576, rowLossResidual P T n.val) (Ideal.ofBits .f32 0x49800000#32) := by
  funext i
  rw [val_main_v20_apply, val_main_cst_5_apply, val_main_v19_apply, val_main_cst_4_apply]
  show Ideal.div (Ideal.ofBits .f32 0x00000000#32 + ∑ j : S1048576.Idx, val_main_v18 (F := Ideal) T P j)
    (Ideal.ofBits .f32 0x49800000#32) = _
  rw [zero_start, RankOneSum.sum_idx1]
  exact congrArg (Ideal.div · (Ideal.ofBits .f32 0x49800000#32)) (Finset.sum_congr rfl fun n _ => loss_at T P n)

end Cert.ReferenceIdeal.RefValue

end
-- ==== Proof.Finite.lean ====
/-
  The precondition, read back: every entry of both arrays is a real number.

  The precondition tests `|x| < +∞` at every entry of each array, reduces each array's tests by `and`, and asks the
  conjunction of the two to be one. An `and` over all entries that comes out one met only ones; and an extended real
  whose absolute value `max x (−x)` lies below `+∞` is neither infinity, that is, a real.
-/
import proofs.«110982_j22832046145612_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Idealize.ShloMosaic.ValueIdx Cert.Pre_finite_inputs

instance : Subsingleton S_.Idx := ⟨fun a b => funext fun d => d.elim0⟩

/-- The all-ones-exponent pattern with a zero fraction denotes `+∞`. -/
theorem ofBits_inf : Ideal.ofBits .f32 0x7F800000#32 = ⊤ := by
  simp [Ideal.ofBits, Ideal.ieee]

/-- A strict comparison that answers one holds. -/
theorem lt_of_cmp_olt (a b : EReal) (h : Ideal.cmp .olt a b = 1#1) : a < b := by
  unfold Ideal.cmp at h
  by_contra hn
  simp [hn] at h

/-- An extended real whose absolute value is below `+∞` is a real. -/
theorem real_of_abs_lt_top (x : EReal) (h : max x (-x) < ⊤) : ∃ r : ℝ, x = r := by
  induction x using EReal.rec with
  | bot => simp at h
  | coe r => exact ⟨r, rfl⟩
  | top => simp at h

variable [Facts]

/-- One array's test: an entry that passes `|x| < +∞` is real. -/
theorem real_of_test (x : FVec Ideal S1048576x128 .f32) (i : S1048576x128.Idx)
    (h : cmpf .olt (Host.absf x) (broadcastInDim S1048576x128 ![] Facts.bcast_S_S1048576x128 (constant (F := Ideal) S_ .f32 0x7F800000#32)) i = 1#1) :
    ∃ r : ℝ, x i = r := by
  have h' : Ideal.cmp .olt (max (x i) (-(x i))) (Ideal.ofBits .f32 0x7F800000#32) = 1#1 := h
  rw [ofBits_inf] at h'
  exact real_of_abs_lt_top _ (lt_of_cmp_olt _ _ h')

/-- The precondition all ones makes every entry of both arrays real. -/
theorem real_of_pre (x0 x1 : FVec Ideal S1048576x128 .f32) (h : fn (F := Ideal) x0 x1 = fun _ => 1#1) :
    (∀ i, ∃ r : ℝ, x0 i = r) ∧ (∀ i, ∃ r : ℝ, x1 i = r) := by
  have h0 := congrFun h ix0
  dsimp only [fn] at h0
  obtain ⟨ha, hb⟩ := IntOp.andi_eq_one.1 h0
  exact ⟨fun i => real_of_test x0 i (Host.reduce_andi_all _ _ _ _ _ ha i),
    fun i => real_of_test x1 i (Host.reduce_andi_all _ _ _ _ _ hb i)⟩

end Cert.Pre_finite_inputs.Finite

end
-- ==== Proof.lean ====
/-
  Both programs compute the mean, over 1048576 rows, of a hinge loss of each row.

  For a row `p` of predictions and `t` of targets, with `d = Σ p·t`, the loss is `max (1/2 + s − d) 0` where `s` is the
  similarity of `p` with the normalised residual `(p − d·t) / max ‖p − d·t‖ ε`. The reference forms the residual and sums
  `p · residual / norm` term by term; the kernel uses `‖p − d·t‖² = pp + d²·(tt − 2)` and `Σ p·(p − d·t) = pp − d²` and
  divides once. On real rows the two agree (Proof/RowAlgebra.lean), and the precondition makes every entry real
  (Proof/Finite.lean). The kernel totals the rows block by block in two halves and adds the halves; the reference sums
  all rows at once; the regrouping is free on the extended reals (Proof/Spec.lean). The kernel's side is read off
  its run (Proof/Accumulate.lean, Proof/BlockLoss.lean, Proof/KernelValue.lean, Proof/KernelRun.lean), the reference's
  off its host operations (Proof/RefValue.lean). Nothing was rewritten between the kernel and its idealization.
-/
import proofs.«110982_j22832046145612_2_alg».proof.Defs
import proofs.«110982_j22832046145612_2_alg».proof.Proof.Gen.Kernel
import proofs.«110982_j22832046145612_2_alg».proof.Proof.Gen.Kernel.Skeleton
import proofs.«110982_j22832046145612_2_alg».proof.Proof.Gen.Kernel.Launch
import proofs.«110982_j22832046145612_2_alg».proof.Proof.Gen.Kernel.Points
import proofs.«110982_j22832046145612_2_alg».proof.Proof.Gen.Kernel.Frame
import proofs.«110982_j22832046145612_2_alg».proof.Proof.Gen.KernelIdeal
import proofs.«110982_j22832046145612_2_alg».proof.Proof.Gen.KernelIdeal.Skeleton
import proofs.«110982_j22832046145612_2_alg».proof.Proof.Gen.KernelIdeal.Launch
import proofs.«110982_j22832046145612_2_alg».proof.Proof.Gen.KernelIdeal.Points
import proofs.«110982_j22832046145612_2_alg».proof.Proof.Gen.KernelIdeal.Frame
import proofs.«110982_j22832046145612_2_alg».proof.Proof.Gen.ReferenceIdeal
import proofs.«110982_j22832046145612_2_alg».proof.Proof.Gen.ReferenceIdeal.Run
import proofs.«110982_j22832046145612_2_alg».proof.Proof.Gen.ReferenceIdeal.Read
import proofs.«110982_j22832046145612_2_alg».proof.Proof.Gen.Pre_finite_inputs
import proofs.«110982_j22832046145612_2_alg».proof.Proof.KernelRun
import proofs.«110982_j22832046145612_2_alg».proof.Proof.RefValue
import proofs.«110982_j22832046145612_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- At the ideal instance both results are the sum of the row losses over the row count, the kernel's with each row's
    loss written from its three dot products, the reference's through the normalised residual: equal on real rows. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v20_eq _ _).trans ?_
  rw [Cert.ReferenceIdeal.RefValue.result_eq]
  obtain ⟨hT, hP⟩ := Cert.Pre_finite_inputs.Finite.real_of_pre _ _ (hpre c)
  funext _
  exact congrArg (Ideal.div · (Ideal.ofBits .f32 0x49800000#32))
    (Finset.sum_congr rfl fun n _ => (Cert.Triplet.rowLossDots_eq_rowLossResidual _ _ hP hT n.val).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
